-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S2048x1024x1 : Shape := ⟨3, ![2048, 1024, 1]⟩
abbrev S2048 : Shape := ⟨1, ![2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x1024x1 : S_.BroadcastsInDim S2048x1024x1 (![] : Fin 0 → Fin S2048x1024x1.rank)
  reducesTo_S2048x1024x1_S_d0_1_2 : S2048x1024x1.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S16384x1024 .f32) (main_arg1 : FVec F S2048x1024 .f32) (main_arg2 : FVec F S2048x1024x1 .f32) (main_arg3 : FVec F S2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024x1 .f32 := Host.absf main_arg2
  let main_cst_2 : FVec F S_ .f32 := constant S_ .f32 0x7F800000#32
  let main_v10 : FVec F S2048x1024x1 .f32 := broadcastInDim S2048x1024x1 ![] bcast_S_S2048x1024x1 main_cst_2
  let main_v11 : IVec S2048x1024x1 1 := cmpf .olt main_v9 main_v10
  let main_c_3 : IVec S_ 1 := constantI S_ 1 1#1
  let main_v12 : IVec S_ 1 := (fun x v => Host.reduce IntOp.andi x v reducesTo_S2048x1024x1_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S16384x1024 : Shape := ⟨2, ![16384, 1024]⟩
abbrev S2048x1024 : Shape := ⟨2, ![2048, 1024]⟩
abbrev S2048x1024x1 : Shape := ⟨3, ![2048, 1024, 1]⟩
abbrev S2048 : Shape := ⟨1, ![2048]⟩
abbrev S_ : Shape := ⟨0, ![]⟩
abbrev S1x2048 : Shape := ⟨2, ![1, 2048]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 30
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024x1, .f32⟩
  | .hbm, ⟨3, _⟩ => ⟨S2048, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S2048x1024, .bf16⟩
  | .hbm, ⟨28, _⟩ => ⟨S2048x1024, .bf16⟩
  | .hbm, ⟨29, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2048x1024 : S_.BroadcastsInDim S2048x1024 (![] : Fin 0 → Fin S2048x1024.rank)
  shapeCasts_S2048x1024x1_S2048x1024 : S2048x1024x1.ShapeCasts S2048x1024
  reducesTo_S2048x1024_S2048_d1 : S2048x1024.ReducesTo [1] S2048
  h_S_ : 0 < S_.numel
  shapeCasts_S2048_S1x2048 : S2048.ShapeCasts S1x2048
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x2048.size a
  hwx0_5 : ∀ i : grid0.Coords, EltTy.bits .f32 = 32 ∨ (Rect.block (s := S16384x2048) S512x2048.size (cc0_transform_5 i) (hinb0_5 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S2048x1024x1 : Shape := ⟨3, ![2048, 1024, 1]⟩
abbrev S2048 : Shape := ⟨1, ![2048]⟩
abbrev S_ : Shape := ⟨0, ![]⟩
abbrev S16384x2048 : Shape := ⟨2, ![16384, 2048]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024x1, .f32⟩
  | .hbm, ⟨3, _⟩ => ⟨S2048, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S16384x1024, .f32⟩
  | .hbm, ⟨20, _⟩ => ⟨S16384x2048, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1024, .f32⟩
  | .hbm, ⟨26, _⟩ => ⟨S16384x2048, .f32⟩
  | .hbm, ⟨27, _⟩ => ⟨S2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  shapeCasts_S2048x1024x1_S2048x1024 : S2048x1024x1.ShapeCasts S2048x1024
  reducesTo_S2048x1024_S2048_d1 : S2048x1024.ReducesTo [1] S2048
  h_S_ : 0 < S_.numel
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x1024_S2048x1024_S16384x2048_1_1_0_0_n_n_wf : DotDims.WF S16384x1024 S2048x1024 S16384x2048 [1] [1] [0] [0] [] []

variable [Facts₀]

def dot_S16384x1024_S2048x1024_S16384x2048_1_1_0_0_n_n : DotDims S16384x1024 S2048x1024 S16384x2048 where
  lhsContracting := [1]
  rhsContracting := [1]
  lhsNonContracting := [0]
  rhsNonContracting := [0]
  lhsBatch := []
  rhsBatch := []
  wf := dot_S16384x1024_S2048x1024_S16384x2048_1_1_0_0_n_n_wf

class Facts : Prop extends Facts₀ where

variable [Facts]
-- ==== Proof.Density.lean ====
/-
  The function both programs compute, stated once, from the four arrays the parameter preparation produces.

  A data row `z` has 1024 entries. Each of the 2048 output components `q` has a diagonal precision `d[q, ·]`, the
  product `dm[q, ·] = d[q, ·] · mean[q, ·]`, the number `mcm[q] = Σ_k d[q, k] · mean[q, k]²` and a scale `s[q]`. The
  entry at (row, q) is

      s[q] · exp( (−Σ_k z_k² · d[q, k] − mcm[q]) + 2 · Σ_k z_k · dm[q, k] ),

  the expanded form of `s[q] · exp(−Σ_k d[q, k] · (z_k − mean[q, k])²)`. It is read on the extended reals with the two
  sums, the difference and the outer sum taken in exactly this order: no term is moved across another and no factor is
  moved across a sum, so nothing below asks for a finite value.
-/
import Idealize.ShloMosaic.PureOps.Ideal
import Idealize.ShloMosaic.Lib.ValueIdx

noncomputable section

namespace Cert.Density

open Idealize.ShloMosaic Idealize.ShloMosaic.ValueIdx

/-- The factor 2 in front of the cross term, as the binary word both programs carry. -/
abbrev two : EReal := Ideal.ofBits .f32 0x40000000#32

/-- One entry of the result from one data row `z`, one component's rows `d` and `dm`, and its numbers `mcm` and `s`. -/
def entry (z d dm : Fin 1024 → EReal) (mcm s : EReal) : EReal :=
  s * Ideal.exp ((-(∑ k : Fin 1024, (z k * z k) * d k) - mcm) + two * ∑ k : Fin 1024, z k * dm k)

/-- The whole result for `R` data rows: entry (r, q) takes row `r` of `Z` and row `q` of `D` and of `DM`. -/
def density {R : ℕ} (Z : (⟨2, ![R, 1024]⟩ : Shape).Idx → EReal) (D DM : (⟨2, ![2048, 1024]⟩ : Shape).Idx → EReal)
    (mcm s : Fin 2048 → EReal) : (⟨2, ![R, 2048]⟩ : Shape).Idx → EReal := fun i =>
  entry (fun k => Z (ix2 (i 0) k)) (fun k => D (ix2 (i 1) k)) (fun k => DM (ix2 (i 1) k)) (mcm (i 1)) (s (i 1))

/-- The entry at explicit coordinates. -/
theorem density_ix2 {R : ℕ} (Z : (⟨2, ![R, 1024]⟩ : Shape).Idx → EReal) (D DM : (⟨2, ![2048, 1024]⟩ : Shape).Idx → EReal)
    (mcm s : Fin 2048 → EReal) (r : Fin R) (q : Fin 2048) :
    density Z D DM mcm s (ix2 r q)
      = entry (fun k => Z (ix2 r k)) (fun k => D (ix2 q k)) (fun k => DM (ix2 q k)) (mcm q) (s q) := rfl

/-- An entry of the density from any five readings of its rows: row `i 0` of `Z`, row `i 1` of `D` and of `DM`, and
    entry `i 1` of `mcm` and of `s`. (How a block of the result is identified: read each row where the block sits.) -/
theorem density_apply_of_rows {R : ℕ} (Z : (⟨2, ![R, 1024]⟩ : Shape).Idx → EReal)
    (D DM : (⟨2, ![2048, 1024]⟩ : Shape).Idx → EReal) (mcm s : Fin 2048 → EReal) (i : (⟨2, ![R, 2048]⟩ : Shape).Idx)
    (z d dm : Fin 1024 → EReal) (a b : EReal)
    (hz : ∀ k, Z (ix2 (i 0) k) = z k) (hd : ∀ k, D (ix2 (i 1) k) = d k) (hdm : ∀ k, DM (ix2 (i 1) k) = dm k)
    (ha : mcm (i 1) = a) (hb : s (i 1) = b) :
    density Z D DM mcm s i = entry z d dm a b := by
  unfold density
  rw [funext hz, funext hd, funext hdm, ha, hb]

/-- On the extended reals `0 − x` is `−x`: a difference is the sum with the negative, and `0` is neutral for the sum. The
    one arithmetic fact that separates the two programs' spellings of the leading sign. -/
theorem zero_sub_eq_neg (x : EReal) : (0 : EReal) - x = -x := zero_sub x

end Cert.Density

end
-- ==== Proof.BlockEntry.lean ====
/-
  What the kernel body stores at one entry of its output block, as a function of the blocks it loads.

  At a grid point the body holds a block of 512 data rows `x0`, the whole precision array `x1` and the whole
  precision-times-mean array `x2` (2048 rows of 1024 each), and the two one-row arrays `x3` (the constants `mcm`) and
  `x4` (the scales). Entry (p, q) of what it stores is `Density.entry` of row `p` of `x0`, row `q` of `x1` and of `x2`,
  and entry `q` of `x3` and of `x4`:
  • each of its two matrix products contracts the last axis of a 512 × 1024 block with the last axis of a 2048 × 1024
    block into a zero accumulator, so its entry (p, q) is `Σ_k l[p, k] · r[q, k]`;
  • the change of float format in front of each product is the identity on the extended reals;
  • a one-row array broadcast over the 512 rows reads, at (p, q), its entry `q`;
  • the body writes the leading sign as `0 − x`, which is `−x`.
-/
import proofs.«126717_j80642305950189_2_alg».proof.Proof.Gen.KernelIdeal.Skeleton
import proofs.«126717_j80642305950189_2_alg».proof.Proof.Density
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The left operand's index of the contraction has the output's row as its first coordinate. -/
theorem lhs_row (i : S512x2048.Idx) (k : dot_S512x1024_S2048x1024_S512x2048_1_1_0_0_n_n.contr.Idx) :
    (dot_S512x1024_S2048x1024_S512x2048_1_1_0_0_n_n.lhsIdx i k 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

/-- The right operand's index of the contraction has the output's column as its first coordinate. -/
theorem rhs_row (i : S512x2048.Idx) (k : dot_S512x1024_S2048x1024_S512x2048_1_1_0_0_n_n.contr.Idx) :
    (dot_S512x1024_S2048x1024_S512x2048_1_1_0_0_n_n.rhsIdx i k 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- A 512 × 1024 block times a 2048 × 1024 block over their last axes, onto zero: entry (p, q) is `Σ_k l[p, k] · r[q, k]`. -/
theorem contract_apply (l : FVec Ideal S512x1024 .bf16) (r : FVec Ideal S2048x1024 .bf16) (p : Fin 512) (q : Fin 2048) :
    matmul dot_S512x1024_S2048x1024_S512x2048_1_1_0_0_n_n none l r (constant (F := Ideal) S512x2048 .f32 0x00000000#32) (ix2 p q)
      = ∑ k : Fin 1024, l (ix2 p k) * r (ix2 q k) := by
  refine (Ideal.matmul_constant_zero_apply dot_S512x1024_S2048x1024_S512x2048_1_1_0_0_n_n none l r (ix2 p q)).trans ?_
  rw [← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q) ((contrEquiv1 dot_S512x1024_S2048x1024_S512x2048_1_1_0_0_n_n 1024 rfl rfl).symm k) = ix2 p k :=
    funext fun a => Fin.ext (by
      match a with
      | ⟨0, _⟩ => exact lhs_row _ _
      | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p q) ((contrEquiv1 dot_S512x1024_S2048x1024_S512x2048_1_1_0_0_n_n 1024 rfl rfl).symm k) = ix2 q k :=
    funext fun a => Fin.ext (by
      match a with
      | ⟨0, _⟩ => exact rhs_row _ _
      | ⟨1, _⟩ => exact (dot_S512x1024_S2048x1024_S512x2048_1_1_0_0_n_n.rhsIdx_val_of_single rfl _ _).trans hk)
  rw [el, er]

/-- A one-row array, cast to its own shape and broadcast over the 512 rows, reads at (p, q) its entry `q`. -/
theorem row_apply (v : Vec Ideal S1x2048 .f32) (p : Fin 512) (q : Fin 2048) :
    broadcastTo S512x2048 (shapeCast S1x2048 v shapeCasts_S1x2048_S1x2048) broadcasts_S1x2048_S512x2048 (ix2 p q)
      = v (ix2 (0 : Fin 1) q) := by
  rw [shapeCast_self]
  exact broadcastTo_1b_ab_apply v broadcasts_S1x2048_S512x2048 p q

/-- THE BODY'S STORE AT AN ENTRY: the density's entry of the loaded blocks' rows. -/
theorem pay_apply (x0 : Vec Ideal S512x1024 .f32) (x1 x2 : Vec Ideal S2048x1024 .bf16) (x3 x4 : Vec Ideal S1x2048 .f32)
    (p : Fin 512) (q : Fin 2048) :
    k0_pay1 x0 x1 x2 x3 x4 (ix2 p q)
      = Density.entry (fun k => x0 (ix2 p k)) (fun k => x1 (ix2 q k)) (fun k => x2 (ix2 q k))
          (x3 (ix2 (0 : Fin 1) q)) (x4 (ix2 (0 : Fin 1) q)) := by
  unfold k0_pay1
  show (broadcastTo S512x2048 (shapeCast S1x2048 x4 shapeCasts_S1x2048_S1x2048) broadcasts_S1x2048_S512x2048 (ix2 p q))
      * Ideal.exp (((Ideal.ofBits .f32 0x00000000#32
            - matmul dot_S512x1024_S2048x1024_S512x2048_1_1_0_0_n_n none (truncf .bf16 (mulf x0 x0) bitsLt_bf16_f32)
                (shapeCast S2048x1024 x1 shapeCasts_S2048x1024_S2048x1024)
                (constant (F := Ideal) S512x2048 .f32 0x00000000#32) (ix2 p q))
          - broadcastTo S512x2048 (shapeCast S1x2048 x3 shapeCasts_S1x2048_S1x2048) broadcasts_S1x2048_S512x2048 (ix2 p q))
        + Ideal.ofBits .f32 0x40000000#32
          * matmul dot_S512x1024_S2048x1024_S512x2048_1_1_0_0_n_n none (truncf .bf16 x0 bitsLt_bf16_f32)
              (shapeCast S2048x1024 x2 shapeCasts_S2048x1024_S2048x1024)
              (constant (F := Ideal) S512x2048 .f32 0x00000000#32) (ix2 p q)) = _
  rw [row_apply, row_apply, contract_apply, contract_apply, Ideal.ofBits_zero_f32, Density.zero_sub_eq_neg,
    shapeCast_self, shapeCast_self]
  rfl

end Cert.KernelIdeal.Block

end
-- ==== Proof.OutputArray.lean ====
/-
  From the blocks the kernel writes back to the whole output array.

  The grid has 32 points. At point `t` the kernel reads rows `512·t … 512·t + 511` of the data array and the whole of
  the other four arrays, and writes back rows `512·t … 512·t + 511` of the output, all 2048 columns. Entry (p, q) of
  what it writes is the density's entry of data row `512·t + p` and component `q` (the body's store at an entry, read
  where the blocks sit), which is entry (512·t + p, q) of ONE array: the density of the whole data array. The 32 blocks
  tile the output's rows — row `r` lies in block `r / 512` — so the output array ends at that density.
-/
import proofs.«126717_j80642305950189_2_alg».proof.Proof.Gen.KernelIdeal.Value
import proofs.«126717_j80642305950189_2_alg».proof.Proof.BlockEntry
import Idealize.ShloMosaic.Lib.Pipeline.Value
import Idealize.ShloMosaic.Lib.ValueIdx

noncomputable section

namespace Cert.KernelIdeal.Output

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`, decided over the 32 points: the data window and the output window
    at block row `t`, the four parameter windows at their one block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- THE OUTPUT: the density of the whole data array against the four prepared arrays, as the region finds them. -/
def result (c : Dev nD) : Buf (Elt Ideal) ((c : Thread nD τ).loc main_v20) :=
  Density.density (V m c main_arg0 : S16384x1024.Idx → EReal) (V m c main_v18 : S2048x1024.Idx → EReal)
    (V m c main_v19 : S2048x1024.Idx → EReal)
    (fun q => (V m c main_v15 : S1x2048.Idx → EReal) (ix2 (0 : Fin 1) q))
    (fun q => (V m c main_v17 : S1x2048.Idx → EReal) (ix2 (0 : Fin 1) q))

/-- The data window's block at point `t` holds rows `512·t …` of the data array. -/
theorem data_block_apply (c : Dev nD) (t : Fin cfg0.N) (p : Fin 512) (k : Fin 1024) (i : S16384x1024.Idx)
    (h0 : (i 0).val = 512 * t.val + p.val) (h1 : (i 1).val = k.val) :
    (iblk m c 0 t : Vec Ideal S512x1024 .f32) (ix2 p k) = (V m c main_arg0 : S16384x1024.Idx → EReal) i := by
  obtain ⟨e0, e1, -⟩ := block_positions t
  unfold iblk
  rw [View.read_apply]
  show V m c main_arg0 _ = V m c main_arg0 _
  refine congrArg (V m c main_arg0 : S16384x1024.Idx → EReal) (funext fun a => Fin.ext ?_)
  match a with
  | ⟨0, _⟩ => show win0_0.index t (0 : Fin 2) * 512 + 1 * p.val = (i 0).val; rw [e0, h0]; omega
  | ⟨1, _⟩ => show win0_0.index t (1 : Fin 2) * 1024 + 1 * k.val = (i 1).val; rw [e1, h1]; omega

/-- The precision window's one block is the whole precision array. -/
theorem precision_block_apply (c : Dev nD) (t : Fin cfg0.N) (j : S2048x1024.Idx) :
    (iblk m c 1 t : Vec Ideal S2048x1024 .bf16) j = (V m c main_v18 : S2048x1024.Idx → EReal) j := by
  obtain ⟨-, -, e0, e1, -⟩ := block_positions t
  unfold iblk
  rw [View.read_apply]
  show V m c main_v18 _ = V m c main_v18 _
  refine congrArg (V m c main_v18 : S2048x1024.Idx → EReal) (funext fun a => Fin.ext ?_)
  match a with
  | ⟨0, _⟩ => show win0_1.index t (0 : Fin 2) * 2048 + 1 * (j 0).val = (j 0).val; rw [e0]; omega
  | ⟨1, _⟩ => show win0_1.index t (1 : Fin 2) * 1024 + 1 * (j 1).val = (j 1).val; rw [e1]; omega

/-- The precision-times-mean window's one block is that whole array. -/
theorem precision_mean_block_apply (c : Dev nD) (t : Fin cfg0.N) (j : S2048x1024.Idx) :
    (iblk m c 2 t : Vec Ideal S2048x1024 .bf16) j = (V m c main_v19 : S2048x1024.Idx → EReal) j := by
  obtain ⟨-, -, -, -, e0, e1, -⟩ := block_positions t
  unfold iblk
  rw [View.read_apply]
  show V m c main_v19 _ = V m c main_v19 _
  refine congrArg (V m c main_v19 : S2048x1024.Idx → EReal) (funext fun a => Fin.ext ?_)
  match a with
  | ⟨0, _⟩ => show win0_2.index t (0 : Fin 2) * 2048 + 1 * (j 0).val = (j 0).val; rw [e0]; omega
  | ⟨1, _⟩ => show win0_2.index t (1 : Fin 2) * 1024 + 1 * (j 1).val = (j 1).val; rw [e1]; omega

/-- The window of constants' one block is the whole row of constants. -/
theorem mcm_block_apply (c : Dev nD) (t : Fin cfg0.N) (j : S1x2048.Idx) :
    (iblk m c 3 t : Vec Ideal S1x2048 .f32) j = (V m c main_v15 : S1x2048.Idx → EReal) j := by
  obtain ⟨-, -, -, -, -, -, e0, e1, -⟩ := block_positions t
  unfold iblk
  rw [View.read_apply]
  show V m c main_v15 _ = V m c main_v15 _
  refine congrArg (V m c main_v15 : S1x2048.Idx → EReal) (funext fun a => Fin.ext ?_)
  match a with
  | ⟨0, _⟩ => show win0_3.index t (0 : Fin 2) * 1 + 1 * (j 0).val = (j 0).val; rw [e0]; omega
  | ⟨1, _⟩ => show win0_3.index t (1 : Fin 2) * 2048 + 1 * (j 1).val = (j 1).val; rw [e1]; omega

/-- The window of scales' one block is the whole row of scales. -/
theorem scale_block_apply (c : Dev nD) (t : Fin cfg0.N) (j : S1x2048.Idx) :
    (iblk m c 4 t : Vec Ideal S1x2048 .f32) j = (V m c main_v17 : S1x2048.Idx → EReal) j := by
  obtain ⟨-, -, -, -, -, -, -, -, e0, e1, -⟩ := block_positions t
  unfold iblk
  rw [View.read_apply]
  show V m c main_v17 _ = V m c main_v17 _
  refine congrArg (V m c main_v17 : S1x2048.Idx → EReal) (funext fun a => Fin.ext ?_)
  match a with
  | ⟨0, _⟩ => show win0_4.index t (0 : Fin 2) * 1 + 1 * (j 0).val = (j 0).val; rw [e0]; omega
  | ⟨1, _⟩ => show win0_4.index t (1 : Fin 2) * 2048 + 1 * (j 1).val = (j 1).val; rw [e1]; omega

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero zero_offsets]
  simp only [View.ld_unit_zero (S := S512x1024) zero_offsets, View.ld_unit_zero (S := S2048x1024) zero_offsets,
    View.ld_unit_zero (S := S1x2048) zero_offsets]
  funext y
  obtain ⟨p, q, rfl⟩ : ∃ (p : Fin 512) (q : Fin 2048), y = ix2 p q := ⟨y 0, y 1, eq_ix2 y⟩
  obtain ⟨-, -, -, -, -, -, -, -, -, -, e0, e1⟩ := block_positions t
  show k0_pay1 (iblk m c 0 t) (iblk m c 1 t) (iblk m c 2 t) (iblk m c 3 t) (iblk m c 4 t) (ix2 p q)
    = result m c (((cfg0.win 5).blk t).view.emb (ix2 p q))
  have h0 : ((((cfg0.win 5).blk t).view.emb (ix2 p q)) 0).val = 512 * t.val + p.val := by
    show win0_5.index t (0 : Fin 2) * 512 + 1 * p.val = _
    rw [e0]; omega
  have h1 : ((((cfg0.win 5).blk t).view.emb (ix2 p q)) 1).val = q.val := by
    show win0_5.index t (1 : Fin 2) * 2048 + 1 * q.val = _
    rw [e1]; omega
  refine (Block.pay_apply (iblk m c 0 t) (iblk m c 1 t) (iblk m c 2 t) (iblk m c 3 t) (iblk m c 4 t) p q).trans ?_
  unfold result
  refine (Density.density_apply_of_rows _ _ _ _ _ (((cfg0.win 5).blk t).view.emb (ix2 p q)) _ _ _ _ _
    (fun k => ?_) (fun k => ?_) (fun k => ?_) ?_ ?_).symm
  · exact (data_block_apply m c t p k _ h0 rfl).symm
  · refine (congrArg (V m c main_v18 : S2048x1024.Idx → EReal) (funext fun a => Fin.ext ?_)).trans
      (precision_block_apply m c t (ix2 q k)).symm
    match a with
    | ⟨0, _⟩ => exact h1
    | ⟨1, _⟩ => rfl
  · refine (congrArg (V m c main_v19 : S2048x1024.Idx → EReal) (funext fun a => Fin.ext ?_)).trans
      (precision_mean_block_apply m c t (ix2 q k)).symm
    match a with
    | ⟨0, _⟩ => exact h1
    | ⟨1, _⟩ => rfl
  · refine (congrArg (V m c main_v15 : S1x2048.Idx → EReal) (funext fun a => Fin.ext ?_)).trans
      (mcm_block_apply m c t (ix2 (0 : Fin 1) q)).symm
    match a with
    | ⟨0, _⟩ => rfl
    | ⟨1, _⟩ => exact h1
  · refine (congrArg (V m c main_v17 : S1x2048.Idx → EReal) (funext fun a => Fin.ext ?_)).trans
      (scale_block_apply m c t (ix2 (0 : Fin 1) q)).symm
    match a with
    | ⟨0, _⟩ => rfl
    | ⟨1, _⟩ => exact h1

/-- An index of the output is in point `t`'s block iff each coordinate is in the block's range on its axis. -/
theorem mem_blk (t : Fin cfg0.N) (i : S16384x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v20).slice (win0_5.rect t)).set ↔ _
  rw [View.set_slice_whole, Rect.mem_set_unit]
  exact Iff.rfl

/-- Every index of the output is in the block of the point its row names: row `r` is in block `r / 512`. -/
theorem cover (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  have hN : cfg0.N = 32 := N_0
  have ht : (i 0).val / 512 < cfg0.N := by rw [hN]; omega
  obtain ⟨-, -, -, -, -, -, -, -, -, -, e0, e1⟩ := block_positions ⟨(i 0).val / 512, ht⟩
  refine ⟨⟨(i 0).val / 512, ht⟩, flush0_5 _, ?_⟩
  rw [mem_blk]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, ht⟩ (1 : Fin 2) * 2048 ≤ (i 1).val
      ∧ (i 1).val < win0_5.index ⟨(i 0).val / 512, ht⟩ (1 : Fin 2) * 2048 + 2048
    rw [e1]
    omega

/-- THE OUTPUT ARRAY after the run is `result`. -/
theorem final (c : Dev nD) : (dats m 0 c).arrAt 5 cfg0.N = result m c :=
  (dats m 0 c).arrAt_eq_of_cover 5 (result m c) (fun t _ => flushed_eq m c t) cover

/-- The kernel's run, read: the output array at `result`, the four argument arrays unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Output

end
-- ==== Proof.PreparedArrays.lean ====
/-
  The arrays the parameter preparation leaves for the kernel, named.

  Before the kernel runs, the program computes from the parameter arrays: the precision
  `d = 0.1 + 0.9 · 1 / (1 + exp(−diag))`, the product `d · mean`, the constants `mcm[q] = Σ_k (d · mean · mean)[q, k]`
  laid out as one row, and the scales `tanh(scale)` laid out as one row. The reference computes the same four values by
  the same operations in the same order, so here they are not opened: each array the kernel's region finds is shown
  to BE the reference's value of that name (the change of float format in front of the kernel's two matrix operands is
  the identity on the extended reals), and the two one-row arrays are read at an entry.
-/
import proofs.«126717_j80642305950189_2_alg».proof.Proof.Gen.KernelIdeal.Frame
import proofs.«126717_j80642305950189_2_alg».proof.Proof.Gen.ReferenceIdeal.Read
import Idealize.ShloMosaic.Lib.StableHlo.Run
import Idealize.ShloMosaic.Lib.ValueLayout
import Idealize.ShloMosaic.Lib.ValueIdx

noncomputable section

namespace Cert.KernelIdeal.Prepared

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The kernel's precision operand is the reference's precision array. -/
theorem precision_eq (c : Dev nD) :
    (V m c main_v18 : S2048x1024.Idx → EReal)
      = Cert.ReferenceIdeal.Read.val_main_v9 (F := Ideal) (m ((c : Thread nD τ).loc main_arg1)) := by
  dsimp only [V, hostOps0]
  after_results
  rfl

/-- The kernel's precision-times-mean operand is the reference's array of that product. -/
theorem precision_mean_eq (c : Dev nD) :
    (V m c main_v19 : S2048x1024.Idx → EReal)
      = Cert.ReferenceIdeal.Read.val_main_v16 (F := Ideal) (m ((c : Thread nD τ).loc main_arg1))
          (m ((c : Thread nD τ).loc main_arg2)) := by
  dsimp only [V, hostOps0]
  after_results
  rfl

/-- The kernel's one-row array of constants is the reference's vector `mcm` laid out as a row. -/
theorem mcm_row_eq (c : Dev nD) :
    (V m c main_v15 : S1x2048.Idx → EReal)
      = shapeCast S1x2048 (Cert.ReferenceIdeal.Read.val_main_v15 (F := Ideal) (m ((c : Thread nD τ).loc main_arg1))
          (m ((c : Thread nD τ).loc main_arg2))) shapeCasts_S2048_S1x2048 := by
  dsimp only [V, hostOps0]
  after_results
  rfl

/-- The kernel's one-row array of scales is the reference's vector of scales laid out as a row. -/
theorem scale_row_eq (c : Dev nD) :
    (V m c main_v17 : S1x2048.Idx → EReal)
      = shapeCast S1x2048 (Cert.ReferenceIdeal.Read.val_main_v18 (F := Ideal) (m ((c : Thread nD τ).loc main_arg3)))
          shapeCasts_S2048_S1x2048 := by
  dsimp only [V, hostOps0]
  after_results
  rfl

/-- Entry `q` of the row of constants is entry `q` of the reference's `mcm`. -/
theorem mcm_apply (c : Dev nD) (q : Fin 2048) :
    (V m c main_v15 : S1x2048.Idx → EReal) (ix2 (0 : Fin 1) q)
      = Cert.ReferenceIdeal.Read.val_main_v15 (F := Ideal) (m ((c : Thread nD τ).loc main_arg1))
          (m ((c : Thread nD τ).loc main_arg2)) (ix1 q) := by
  rw [mcm_row_eq]
  exact shapeCast_a_1a_apply _ shapeCasts_S2048_S1x2048 (0 : Fin 1) q

/-- Entry `q` of the row of scales is entry `q` of the reference's scales. -/
theorem scale_apply (c : Dev nD) (q : Fin 2048) :
    (V m c main_v17 : S1x2048.Idx → EReal) (ix2 (0 : Fin 1) q)
      = Cert.ReferenceIdeal.Read.val_main_v18 (F := Ideal) (m ((c : Thread nD τ).loc main_arg3)) (ix1 q) := by
  rw [scale_row_eq]
  exact shapeCast_a_1a_apply _ shapeCasts_S2048_S1x2048 (0 : Fin 1) q

end Cert.KernelIdeal.Prepared

end
-- ==== Proof.ReferenceDensity.lean ====
/-
  The reference's result is the density of its own prepared arrays.

  Read one operation at a time, entry (r, q) of the reference's result is
  `tanh(scale)[q] · exp( (−Σ_k (z·z)[r, k] · d[q, k] − mcm[q]) + 2 · Σ_k z[r, k] · (d·mean)[q, k] )`: the two
  contractions run over the last axis of both operands, the vector `mcm` and the vector of scales are broadcast along the
  rows so entry (r, q) reads their entry `q`, and the host's negation and exponential are the extended reals' own. That is
  `Density.density` of the data array, the precision, the precision times the mean, `mcm` and the scales, term for term;
  what is left to say is where each composed index lands.
-/
import proofs.«126717_j80642305950189_2_alg».proof.Proof.Gen.ReferenceIdeal.Read
import proofs.«126717_j80642305950189_2_alg».proof.Proof.Density

noncomputable section

namespace Cert.ReferenceIdeal.RefDensity

open Cert.ReferenceIdeal Cert.ReferenceIdeal.Read Idealize.ShloMosaic Idealize.ShloMosaic.ValueIdx

/-- THE REFERENCE IS THE DENSITY of the data array and the four arrays it prepares from the parameters. -/
theorem result_eq (x0 : (⟨S16384x1024, .f32⟩ : BufTy).Contents (Elt Ideal))
    (x1 : (⟨S2048x1024, .f32⟩ : BufTy).Contents (Elt Ideal))
    (x2 : (⟨S2048x1024x1, .f32⟩ : BufTy).Contents (Elt Ideal)) (x3 : (⟨S2048, .f32⟩ : BufTy).Contents (Elt Ideal)) :
    val_main_v29 (F := Ideal) x0 x1 x2 x3
      = Density.density (R := 16384) x0 (val_main_v9 (F := Ideal) x1) (val_main_v16 (F := Ideal) x1 x2)
          (fun q => val_main_v15 (F := Ideal) x1 x2 (ix1 q)) (fun q => val_main_v18 (F := Ideal) x3 (ix1 q)) := by
  funext i
  obtain ⟨r, q, rfl⟩ : ∃ (r : Fin 16384) (q : Fin 2048), i = ix2 r q := ⟨i 0, i 1, eq_ix2 i⟩
  rw [Density.density_ix2]
  unfold Density.entry
  rw [val_main_v29_apply, val_main_v28_apply, val_main_v27_apply, val_main_v26_apply, val_main_v25_apply,
    val_main_v22_apply, val_main_v19_apply, val_main_v12_apply, val_main_v21_apply, val_main_v20_apply,
    val_main_v24_apply, val_main_v23_apply, val_main_cst_4_apply, val_main_v17_apply]
  -- a vector broadcast to one row and then along the rows reads, at (r, q), its entry q
  have e_scale : idx_main_v27 (idx_main_v28 (ix2 r q)) = ix1 q :=
    funext fun a => Fin.ext (by match a with | ⟨0, _⟩ => rfl)
  have e_mcm : idx_main_v20 (idx_main_v21 (ix2 r q)) = ix1 q :=
    funext fun a => Fin.ext (by match a with | ⟨0, _⟩ => rfl)
  -- each contraction pairs row r of its left operand with row q of its right operand
  have e_l12 : ∀ k, lidx_main_v12 (ix2 r q) k = ix2 r k := fun k =>
    funext fun a => Fin.ext (by match a with | ⟨0, _⟩ => rfl | ⟨1, _⟩ => rfl)
  have e_r12 : ∀ k, ridx_main_v12 (ix2 r q) k = ix2 q k := fun k =>
    funext fun a => Fin.ext (by match a with | ⟨0, _⟩ => rfl | ⟨1, _⟩ => rfl)
  have e_l17 : ∀ k, lidx_main_v17 (ix2 r q) k = ix2 r k := fun k =>
    funext fun a => Fin.ext (by match a with | ⟨0, _⟩ => rfl | ⟨1, _⟩ => rfl)
  have e_r17 : ∀ k, ridx_main_v17 (ix2 r q) k = ix2 q k := fun k =>
    funext fun a => Fin.ext (by match a with | ⟨0, _⟩ => rfl | ⟨1, _⟩ => rfl)
  simp only [e_scale, e_mcm, e_l12, e_r12, e_l17, e_r17]
  rfl

end Cert.ReferenceIdeal.RefDensity

end
-- ==== Proof.SameDensity.lean ====
/-
  The two programs end at one array.

  The kernel's output array is the density of the data array and the four arrays its region finds prepared; those four
  are the reference's own prepared arrays (the data array is the argument itself), and the reference's result is the
  density of exactly those. So from memories that agree on the four arguments both runs end with the same array,
  entry by entry, as extended reals. No finiteness of the inputs is used: the two sides are the same sums, differences
  and products in the same order.
-/
import proofs.«126717_j80642305950189_2_alg».proof.Defs
import proofs.«126717_j80642305950189_2_alg».proof.Proof.OutputArray
import proofs.«126717_j80642305950189_2_alg».proof.Proof.PreparedArrays
import proofs.«126717_j80642305950189_2_alg».proof.Proof.ReferenceDensity
import proofs.«126717_j80642305950189_2_alg».proof.Proof.Gen.ReferenceIdeal.Run
import proofs.«126717_j80642305950189_2_alg».proof.Proof.Gen.Pre_finite_inputs

noncomputable section

open Idealize.ShloMosaic Idealize.ShloMosaic.TcCoe Idealize.SL.Sem Idealize.ShloMosaic.ValueIdx

namespace Cert.KernelIdeal.Agreement

open Cert.KernelIdeal Cert.KernelIdeal.Gen

/-- The kernel's output, with each array the region finds named as the reference names it: the density of the
    argument data array and of the reference's precision, precision times mean, `mcm` and scales of the arguments. -/
theorem result_eq (m : (ℓ : Loc nD τ sig) → Buf (Elt Ideal) ℓ) (c : Dev nD) :
    Output.result m c
      = Density.density (R := 16384) (m ((c : Thread nD τ).loc main_arg0))
          (Cert.ReferenceIdeal.Read.val_main_v9 (F := Ideal) (m ((c : Thread nD τ).loc main_arg1)))
          (Cert.ReferenceIdeal.Read.val_main_v16 (F := Ideal) (m ((c : Thread nD τ).loc main_arg1))
            (m ((c : Thread nD τ).loc main_arg2)))
          (fun q => Cert.ReferenceIdeal.Read.val_main_v15 (F := Ideal) (m ((c : Thread nD τ).loc main_arg1))
            (m ((c : Thread nD τ).loc main_arg2)) (ix1 q))
          (fun q => Cert.ReferenceIdeal.Read.val_main_v18 (F := Ideal) (m ((c : Thread nD τ).loc main_arg3)) (ix1 q)) := by
  unfold Output.result
  rw [V_main_arg0, Prepared.precision_eq, Prepared.precision_mean_eq, funext (Prepared.mcm_apply m c),
    funext (Prepared.scale_apply m c)]

end Cert.KernelIdeal.Agreement

namespace Cert.Proof.Claims

/-- From memories agreeing on the arguments, the idealized kernel and the idealized reference both run and end with
    equal results: the kernel's output array and the reference's result are one density of the arguments. -/
theorem algebraic : Cert.algebraic_KernelIdeal_ReferenceIdeal := by
  intro m ρ m' ρ' _ hagree
  refine ⟨fun c => Cert.KernelIdeal.Output.result m c, Cert.KernelIdeal.Output.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v29_eq _ _ _ _).trans ?_
  refine (Cert.ReferenceIdeal.RefDensity.result_eq _ _ _ _).trans ?_
  exact (Cert.KernelIdeal.Agreement.result_eq m c).symm

end Cert.Proof.Claims

end
-- ==== Proof.lean ====
/-
  A Gaussian-type density with diagonal precision, as a tiled kernel and as plain array code: equal at the extended reals.

  Both programs take a data array z (16384 × 1024), parameters diag and mean (2048 × 1024) and scale (2048), prepare
  `d = 0.1 + 0.9 / (1 + exp(−diag))`, `d · mean`, `mcm[q] = Σ_k d[q, k] · mean[q, k]²` and `tanh(scale)`, and return

      out[r, q] = tanh(scale)[q] · exp( (−Σ_k z[r, k]² · d[q, k] − mcm[q]) + 2 · Σ_k z[r, k] · d[q, k] · mean[q, k] ).

  The kernel computes 512 data rows per grid point with two matrix products onto zero accumulators and writes the
  leading sign as `0 − x`; the reference contracts the whole arrays and negates. On the extended reals a change of float
  format is the identity, a matrix product onto zero is the plain sum of products, and `0 − x = −x`, so both are the
  function `Density.density` (Proof/Density.lean) of the same prepared arrays:
  • Proof/BlockEntry.lean — what the kernel body stores at an entry of its block;
  • Proof/OutputArray.lean — the 32 blocks tile the output, which ends at the density of the whole data array;
  • Proof/PreparedArrays.lean — the four arrays the kernel's region finds are the reference's prepared arrays;
  • Proof/ReferenceDensity.lean — the reference's result is the density of its prepared arrays;
  • Proof/SameDensity.lean — hence equal results from memories that agree on the arguments.
  The three frame conjuncts are the generated frame runs (the reference's is its generated run with the result
  dropped); the idealization rewrote nothing, so the conjunct about it is `True`.
-/
import proofs.«126717_j80642305950189_2_alg».proof.Defs
import proofs.«126717_j80642305950189_2_alg».proof.Proof.Gen.Kernel
import proofs.«126717_j80642305950189_2_alg».proof.Proof.Gen.Kernel.Skeleton
import proofs.«126717_j80642305950189_2_alg».proof.Proof.Gen.Kernel.Launch
import proofs.«126717_j80642305950189_2_alg».proof.Proof.Gen.Kernel.Points
import proofs.«126717_j80642305950189_2_alg».proof.Proof.Gen.Kernel.Frame
import proofs.«126717_j80642305950189_2_alg».proof.Proof.Gen.KernelIdeal
import proofs.«126717_j80642305950189_2_alg».proof.Proof.Gen.KernelIdeal.Skeleton
import proofs.«126717_j80642305950189_2_alg».proof.Proof.Gen.KernelIdeal.Launch
import proofs.«126717_j80642305950189_2_alg».proof.Proof.Gen.KernelIdeal.Points
import proofs.«126717_j80642305950189_2_alg».proof.Proof.Gen.KernelIdeal.Frame
import proofs.«126717_j80642305950189_2_alg».proof.Proof.Gen.ReferenceIdeal
import proofs.«126717_j80642305950189_2_alg».proof.Proof.Gen.KernelIdeal.Value
import proofs.«126717_j80642305950189_2_alg».proof.Proof.Gen.ReferenceIdeal.Run
import proofs.«126717_j80642305950189_2_alg».proof.Proof.Gen.ReferenceIdeal.Read
import proofs.«126717_j80642305950189_2_alg».proof.Proof.Gen.Pre_finite_inputs
import proofs.«126717_j80642305950189_2_alg».proof.Proof.SameDensity
import Idealize.ShloMosaic.Adequacy
import Idealize.ShloMosaic.Init

noncomputable section

namespace Cert.Proof

open Idealize.ShloMosaic Idealize.SL.Sem Cert.Kernel

/-- The word-level kernel runs and leaves its arguments unchanged: its generated frame run. -/
theorem frame_kernel : Cert.frame_Kernel := fun m ρ _ => Cert.Kernel.Gen.frame m ρ

/-- The idealized kernel runs and leaves its arguments unchanged: its generated frame run. -/
theorem frame_kernel_ideal : Cert.frame_KernelIdeal := fun m ρ _ => Cert.KernelIdeal.Gen.frame m ρ

/-- The idealized reference runs and leaves its arguments unchanged: its generated run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, Cert.Proof.Claims.algebraic⟩

end Cert.Proof

end
